-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1000000 32) (main_arg2 : FVec F S64x64 .f32) (main_arg3 : FVec F S64 .f32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S1x1000000 : Shape := ⟨2, ![1, 1000000]⟩
abbrev S1000000 : Shape := ⟨1, ![1000000]⟩
abbrev S5000x64 : Shape := ⟨2, ![5000, 64]⟩
abbrev S100000 : Shape := ⟨1, ![100000]⟩
abbrev S1100000 : Shape := ⟨1, ![1100000]⟩
abbrev S_ : Shape := ⟨0, ![]⟩
abbrev S1100000x1 : Shape := ⟨2, ![1100000, 1]⟩
abbrev S1100000x64 : Shape := ⟨2, ![1100000, 64]⟩
abbrev S1x64 : Shape := ⟨2, ![1, 64]⟩

abbrev nBuf : Space → Nat
  | .hbm => 119
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1000000, .i32⟩
  | .hbm, ⟨7, _⟩ => ⟨S1000000, .i32⟩
  | .hbm, ⟨8, _⟩ => ⟨S1x1000000, .i32⟩
  | .hbm, ⟨9, _⟩ => ⟨S1000000, .i32⟩
  | .hbm, ⟨10, _⟩ => ⟨S100000x64, .f32⟩
  | .hbm, ⟨11, _⟩ => ⟨S100000x64, .f32⟩
  | .hbm, ⟨12, _⟩ => ⟨S100000, .i32⟩
  | .hbm, ⟨13, _⟩ => ⟨S1100000, .i32⟩
  | .hbm, ⟨14, _⟩ => ⟨S1100000, .i32⟩
  | .hbm, ⟨15, _⟩ => ⟨S_, .f32⟩
  | .hbm, ⟨16, _⟩ => ⟨S1100000, .f32⟩
  | .hbm, ⟨17, _⟩ => ⟨S_, .f32⟩
  | .hbm, ⟨18, _⟩ => ⟨S100000, .f32⟩
  | .hbm, ⟨19, _⟩ => ⟨S1100000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1100000, .i32⟩
  | .hbm, ⟨31, _⟩ => ⟨S1100000, .i1⟩
  | .hbm, ⟨32, _⟩ => ⟨S_, .i32⟩
  | .hbm, ⟨33, _⟩ => ⟨S1100000, .i32⟩
  | .hbm, ⟨34, _⟩ => ⟨S1100000, .i32⟩
  | .hbm, ⟨35, _⟩ => ⟨S1100000, .i32⟩
  | .hbm, ⟨36, _⟩ => ⟨S1100000x1, .i32⟩
  | .hbm, ⟨37, _⟩ => ⟨S1100000, .f32⟩
  | .hbm, ⟨38, _⟩ => ⟨S_, .i32⟩
  | .hbm, ⟨39, _⟩ => ⟨S1100000, .i32⟩
  | .hbm, ⟨40, _⟩ => ⟨S1100000, .i1⟩
  | .hbm, ⟨41, _⟩ => ⟨S_, .i32⟩
  | .hbm, ⟨42, _⟩ => ⟨S1100000, .i32⟩
  | .hbm, ⟨43, _⟩ => ⟨S1100000, .i32⟩
  | .hbm, ⟨44, _⟩ => ⟨S1100000, .i32⟩
  | .hbm, ⟨45, _⟩ => ⟨S1100000x1, .i32⟩
  | .hbm, ⟨46, _⟩ => ⟨S1100000, .f32⟩
  | .hbm, ⟨47, _⟩ => ⟨S1100000, .f32⟩
  | .hbm, ⟨48, _⟩ => ⟨S_, .i32⟩
  | .hbm, ⟨49, _⟩ => ⟨S1100000, .i32⟩
  | .hbm, ⟨50, _⟩ => ⟨S1100000, .i1⟩
  | .hbm, ⟨51, _⟩ => ⟨S_, .i32⟩
  | .hbm, ⟨52, _⟩ => ⟨S1100000, .i32⟩
  | .hbm, ⟨53, _⟩ => ⟨S1100000, .i32⟩
  | .hbm, ⟨54, _⟩ => ⟨S1100000, .i32⟩
  | .hbm, ⟨55, _⟩ => ⟨S1100000x1, .i32⟩
  | .hbm, ⟨56, _⟩ => ⟨S1100000x64, .f32⟩
  | .hbm, ⟨57, _⟩ => ⟨S1100000x1, .f32⟩
  | .hbm, ⟨58, _⟩ => ⟨S1100000x64, .f32⟩
  | .hbm, ⟨59, _⟩ => ⟨S1100000x64, .f32⟩
  | .hbm, ⟨60, _⟩ => ⟨S_, .f32⟩
  | .hbm, ⟨61, _⟩ => ⟨S100000x64, .f32⟩
  | .hbm, ⟨62, _⟩ => ⟨S1100000x1, .i32⟩
  | .hbm, ⟨63, _⟩ => ⟨S100000x64, .f32⟩
  | .hbm, ⟨64, _⟩ => ⟨S100000, .i32⟩
  | .hbm, ⟨65, _⟩ => ⟨S1100000, .i32⟩
  | .hbm, ⟨66, _⟩ => ⟨S1100000, .i32⟩
  | .hbm, ⟨67, _⟩ => ⟨S_, .f32⟩
  | .hbm, ⟨68, _⟩ => ⟨S1100000, .f32⟩
  | .hbm, ⟨69, _⟩ => ⟨S_, .f32⟩
  | .hbm, ⟨70, _⟩ => ⟨S100000, .f32⟩
  | .hbm, ⟨71, _⟩ => ⟨S1100000x1, .i32⟩
  | .hbm, ⟨72, _⟩ => ⟨S100000, .f32⟩
  | .hbm, ⟨73, _⟩ => ⟨S_, .f32⟩
  | .hbm, ⟨74, _⟩ => ⟨S100000, .f32⟩
  | .hbm, ⟨75, _⟩ => ⟨S100000, .i1⟩
  | .hbm, ⟨76, _⟩ => ⟨S100000, .f32⟩
  | .hbm, ⟨77, _⟩ => ⟨S_, .f32⟩
  | .hbm, ⟨78, _⟩ => ⟨S_, .f32⟩
  | .hbm, ⟨79, _⟩ => ⟨S100000, .f32⟩
  | .hbm, ⟨80, _⟩ => ⟨S100000, .f32⟩
  | .hbm, ⟨81, _⟩ => ⟨S_, .i32⟩
  | .hbm, ⟨82, _⟩ => ⟨S1100000, .i32⟩
  | .hbm, ⟨83, _⟩ => ⟨S1100000, .i1⟩
  | .hbm, ⟨84, _⟩ => ⟨S_, .i32⟩
  | .hbm, ⟨85, _⟩ => ⟨S1100000, .i32⟩
  | .hbm, ⟨86, _⟩ => ⟨S1100000, .i32⟩
  | .hbm, ⟨87, _⟩ => ⟨S1100000, .i32⟩
  | .hbm, ⟨88, _⟩ => ⟨S1100000x1, .i32⟩
  | .hbm, ⟨89, _⟩ => ⟨S1100000, .f32⟩
  | .hbm, ⟨90, _⟩ => ⟨S_, .i32⟩
  | .hbm, ⟨91, _⟩ => ⟨S1100000, .i32⟩
  | .hbm, ⟨92, _⟩ => ⟨S1100000, .i1⟩
  | .hbm, ⟨93, _⟩ => ⟨S_, .i32⟩
  | .hbm, ⟨94, _⟩ => ⟨S1100000, .i32⟩
  | .hbm, ⟨95, _⟩ => ⟨S1100000, .i32⟩
  | .hbm, ⟨96, _⟩ => ⟨S1100000, .i32⟩
  | .hbm, ⟨97, _⟩ => ⟨S1100000x1, .i32⟩
  | .hbm, ⟨98, _⟩ => ⟨S1100000, .f32⟩
  | .hbm, ⟨99, _⟩ => ⟨S1100000, .f32⟩
  | .hbm, ⟨100, _⟩ => ⟨S_, .i32⟩
  | .hbm, ⟨101, _⟩ => ⟨S1100000, .i32⟩
  | .hbm, ⟨102, _⟩ => ⟨S1100000, .i1⟩
  | .hbm, ⟨103, _⟩ => ⟨S_, .i32⟩
  | .hbm, ⟨104, _⟩ => ⟨S1100000, .i32⟩
  | .hbm, ⟨105, _⟩ => ⟨S1100000, .i32⟩
  | .hbm, ⟨106, _⟩ => ⟨S1100000, .i32⟩
  | .hbm, ⟨107, _⟩ => ⟨S1100000x1, .i32⟩
  | .hbm, ⟨108, _⟩ => ⟨S1100000x64, .f32⟩
  | .hbm, ⟨109, _⟩ => ⟨S1100000x1, .f32⟩
  | .hbm, ⟨110, _⟩ => ⟨S1100000x64, .f32⟩
  | .hbm, ⟨111, _⟩ => ⟨S1100000x64, .f32⟩
  | .hbm, ⟨112, _⟩ => ⟨S_, .f32⟩
  | .hbm, ⟨113, _⟩ => ⟨S100000x64, .f32⟩
  | .hbm, ⟨114, _⟩ => ⟨S1100000x1, .i32⟩
  | .hbm, ⟨115, _⟩ => ⟨S100000x64, .f32⟩
  | .hbm, ⟨116, _⟩ => ⟨S1x64, .f32⟩
  | .hbm, ⟨117, _⟩ => ⟨S1x64, .f32⟩
  | .hbm, ⟨118, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S64x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S1x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_12 : Ref sig .tc := ⟨.hbm, 77, rfl⟩
abbrev main_call1_v0 : Ref sig .tc := ⟨.hbm, 78, rfl⟩
abbrev main_call1_v1 : Ref sig .tc := ⟨.hbm, 79, rfl⟩
abbrev main_v54 : Ref sig .tc := ⟨.hbm, 80, rfl⟩
abbrev main_c_13 : Ref sig .tc := ⟨.hbm, 81, rfl⟩
abbrev main_v55 : Ref sig .tc := ⟨.hbm, 82, rfl⟩
abbrev main_v56 : Ref sig .tc := ⟨.hbm, 83, rfl⟩
abbrev main_c_14 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_15 : Ref sig .tc := ⟨.hbm, 90, rfl⟩
abbrev main_v62 : Ref sig .tc := ⟨.hbm, 91, rfl⟩
abbrev main_v63 : Ref sig .tc := ⟨.hbm, 92, rfl⟩
abbrev main_c_16 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_17 : Ref sig .tc := ⟨.hbm, 100, rfl⟩
abbrev main_v70 : Ref sig .tc := ⟨.hbm, 101, rfl⟩
abbrev main_v71 : Ref sig .tc := ⟨.hbm, 102, rfl⟩
abbrev main_c_18 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_19 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  concatenates_S1000000_S100000_S1100000_d0 : Shape.Concatenates [S1000000, S100000] S1100000 0
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  dot_S5000x64_S64x64_S5000x64_1_0_0_1_n_n_wf : DotDims.WF S5000x64 S64x64 S5000x64 [1] [0] [0] [1] [] []
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S5000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v82) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v83) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v84) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v85) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S1x1000000 : Shape := ⟨2, ![1, 1000000]⟩
abbrev S1000000 : Shape := ⟨1, ![1000000]⟩
abbrev S100000 : Shape := ⟨1, ![100000]⟩
abbrev S1100000 : Shape := ⟨1, ![1100000]⟩
abbrev S_ : Shape := ⟨0, ![]⟩
abbrev S1100000x1 : Shape := ⟨2, ![1100000, 1]⟩
abbrev S1100000x64 : Shape := ⟨2, ![1100000, 64]⟩
abbrev S1x64 : Shape := ⟨2, ![1, 64]⟩

abbrev nBuf : Space → Nat
  | .hbm => 132
  | .vmem => 0
  | .smem => 0
  | _ => 0

abbrev hbmTy0_0 (i : Nat) : BufTy := match i % 128 with
  | 0 => ⟨S100000x64, .f32⟩
  | 1 => ⟨S2x1000000, .i32⟩
  | 2 => ⟨S64x64, .f32⟩
  | 3 => ⟨S64, .f32⟩
  | 4 => ⟨S64x64, .f32⟩
  | 5 => ⟨S64, .f32⟩
  | 6 => ⟨S1x1000000, .i32⟩
  | 7 => ⟨S1000000, .i32⟩
  | 8 => ⟨S1x1000000, .i32⟩
  | 9 => ⟨S1000000, .i32⟩
  | 10 => ⟨S100000, .i32⟩
  | 11 => ⟨S1100000, .i32⟩
  | 12 => ⟨S1100000, .i32⟩
  | 13 => ⟨S_, .f32⟩
  | 14 => ⟨S1100000, .f32⟩
  | 15 => ⟨S_, .f32⟩
  | 16 => ⟨S100000, .f32⟩
  | 17 => ⟨S1100000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S1100000, .i32⟩
  | 29 => ⟨S1100000, .i1⟩
  | 30 => ⟨S_, .i32⟩
  | 31 => ⟨S1100000, .i32⟩
  | 32 => ⟨S1100000, .i32⟩
  | 33 => ⟨S1100000, .i32⟩
  | 34 => ⟨S1100000x1, .i32⟩
  | 35 => ⟨S1100000, .f32⟩
  | 36 => ⟨S_, .i32⟩
  | 37 => ⟨S1100000, .i32⟩
  | 38 => ⟨S1100000, .i1⟩
  | 39 => ⟨S_, .i32⟩
  | 40 => ⟨S1100000, .i32⟩
  | 41 => ⟨S1100000, .i32⟩
  | 42 => ⟨S1100000, .i32⟩
  | 43 => ⟨S1100000x1, .i32⟩
  | 44 => ⟨S1100000, .f32⟩
  | 45 => ⟨S1100000, .f32⟩
  | 46 => ⟨S100000x64, .f32⟩
  | 47 => ⟨S_, .i32⟩
  | 48 => ⟨S1100000, .i32⟩
  | 49 => ⟨S1100000, .i1⟩
  | 50 => ⟨S_, .i32⟩
  | 51 => ⟨S1100000, .i32⟩
  | 52 => ⟨S1100000, .i32⟩
  | 53 => ⟨S1100000, .i32⟩
  | 54 => ⟨S1100000x1, .i32⟩
  | 55 => ⟨S1100000x64, .f32⟩
  | 56 => ⟨S1100000x1, .f32⟩
  | 57 => ⟨S1100000x64, .f32⟩
  | 58 => ⟨S1100000x64, .f32⟩
  | 59 => ⟨S_, .f32⟩
  | 60 => ⟨S100000x64, .f32⟩
  | 61 => ⟨S1100000x1, .i32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000, .i32⟩
  | 70 => ⟨S1100000, .i32⟩
  | 71 => ⟨S1100000, .i32⟩
  | 72 => ⟨S_, .f32⟩
  | 73 => ⟨S1100000, .f32⟩
  | 74 => ⟨S_, .f32⟩
  | 75 => ⟨S100000, .f32⟩
  | 76 => ⟨S1100000x1, .i32⟩
  | 77 => ⟨S100000, .f32⟩
  | 78 => ⟨S_, .f32⟩
  | 79 => ⟨S100000, .f32⟩
  | 80 => ⟨S100000, .i1⟩
  | 81 => ⟨S100000, .f32⟩
  | 82 => ⟨S_, .f32⟩
  | 83 => ⟨S_, .f32⟩
  | 84 => ⟨S100000, .f32⟩
  | 85 => ⟨S100000, .f32⟩
  | 86 => ⟨S_, .i32⟩
  | 87 => ⟨S1100000, .i32⟩
  | 88 => ⟨S1100000, .i1⟩
  | 89 => ⟨S_, .i32⟩
  | 90 => ⟨S1100000, .i32⟩
  | 91 => ⟨S1100000, .i32⟩
  | 92 => ⟨S1100000, .i32⟩
  | 93 => ⟨S1100000x1, .i32⟩
  | 94 => ⟨S1100000, .f32⟩
  | 95 => ⟨S_, .i32⟩
  | 96 => ⟨S1100000, .i32⟩
  | 97 => ⟨S1100000, .i1⟩
  | 98 => ⟨S_, .i32⟩
  | 99 => ⟨S1100000, .i32⟩
  | 100 => ⟨S1100000, .i32⟩
  | 101 => ⟨S1100000, .i32⟩
  | 102 => ⟨S1100000x1, .i32⟩
  | 103 => ⟨S1100000, .f32⟩
  | 104 => ⟨S1100000, .f32⟩
  | 105 => ⟨S100000x64, .f32⟩
  | 106 => ⟨S_, .i32⟩
  | 107 => ⟨S1100000, .i32⟩
  | 108 => ⟨S1100000, .i1⟩
  | 109 => ⟨S_, .i32⟩
  | 110 => ⟨S1100000, .i32⟩
  | 111 => ⟨S1100000, .i32⟩
  | 112 => ⟨S1100000, .i32⟩
  | 113 => ⟨S1100000x1, .i32⟩
  | 114 => ⟨S1100000x64, .f32⟩
  | 115 => ⟨S1100000x1, .f32⟩
  | 116 => ⟨S1100000x64, .f32⟩
  | 117 => ⟨S1100000x64, .f32⟩
  | 118 => ⟨S_, .f32⟩
  | 119 => ⟨S100000x64, .f32⟩
  | 120 => ⟨S1100000x1, .i32⟩
  | 121 => ⟨S100000x64, .f32⟩
  | 122 => ⟨S1x64, .f32⟩
  | 123 => ⟨S100000x64, .f32⟩
  | 124 => ⟨S100000x64, .f32⟩
  | 125 => ⟨S_, .f32⟩
  | 126 => ⟨S100000x64, .f32⟩
  | 127 => ⟨S100000x64, .f32⟩
  | _ => ⟨S100000x64, .f32⟩

abbrev hbmTy0_1 (i : Nat) : BufTy := match i % 128 with
  | 0 => ⟨S100000x64, .f32⟩
  | 1 => ⟨S_, .f32⟩
  | 2 => ⟨S100000x64, .f32⟩
  | 3 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v58 : Ref sig .tc := ⟨.hbm, 85, rfl⟩
abbrev main_c_13 : Ref sig .tc := ⟨.hbm, 86, rfl⟩
abbrev main_v59 : Ref sig .tc := ⟨.hbm, 87, rfl⟩
abbrev main_v60 : Ref sig .tc := ⟨.hbm, 88, rfl⟩
abbrev main_c_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_v91 : Ref sig .tc := ⟨.hbm, 127, rfl⟩
abbrev main_v92 : Ref sig .tc := ⟨.hbm, 128, rfl⟩
abbrev main_cst_20 : Ref sig .tc := ⟨.hbm, 129, rfl⟩
abbrev main_v93 : Ref sig .tc := ⟨.hbm, 130, rfl⟩
abbrev main_v94 : Ref sig .tc := ⟨.hbm, 131, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S100000_S1100000_d0 : Shape.Concatenates [S1000000, S100000] S1100000 0
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S100000x64_S64x64_S100000x64_1_0_0_1_n_n_wf : DotDims.WF S100000x64 S64x64 S100000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf

class Facts : Prop extends Facts₀ where

variable [Facts]
-- ==== Proof.KernelRun.lean ====
/-
  The kernel program's run, with its result.

  From any memory with zero counters every weakly fair execution of the two-region program terminates without a
  fault; the result array `main_v85` then holds what the second region's write-backs leave in it (the last stage
  `Gen.W8` of the run's buffer contents, read at that array), and the six argument arrays hold what they were
  launched with.  What the result array holds as a function of the arguments is the business of the sibling modules.
-/
import proofs.«160559_j34256659153348_1_alg».proof.Proof.Gen.KernelIdeal.Frame

set_option maxRecDepth 16384

noncomputable section

namespace Cert.KernelIdeal.RunResult

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result array ends at the contents the
    run's fold gives it, and the six argument arrays end as launched. -/
theorem run : θ_run defs (onTc (τ := τ) (main (F := F))) ⟨m, fun _ => 0, ρ⟩ (fun r => ∀ c : Dev nD,
      r.2.mem ((c.tc : Thread nD τ).loc main_v85) = W8 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v85 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunResult

end
-- ==== Proof.Aggregate.lean ====
/-
  The edge aggregation of one direction, as ONE function of the projected features and the two endpoint lists.

  Every edge `e` goes from `row[e]` to `col[e]`; one self-loop per node is appended (entry `1000000 + n` is node
  `n` at both ends).  A node's degree is the number of list entries that end in it; its weight is the inverse
  square root of that degree (zero where the degree is not positive); an entry's weight is the product of its two
  ends' weights; the aggregate at a node is the sum, over the entries that end in it, of the source node's feature
  row times the entry's weight.  The two programs spell this with the same gathers and scatter-sums in the same
  order, so nothing here is ever opened: both sides are this function, applied to projections that are proved
  equal.
-/
import proofs.«160559_j34256659153348_1_alg».proof.Proof.Gen.KernelIdeal

noncomputable section

namespace Cert.KernelIdeal.Aggregate

open Idealize.ShloMosaic Cert.KernelIdeal Cert.KernelIdeal.Facts₀

variable {F : FTy → Type} [FloatOps F]

/-- An endpoint list with the self-loops appended: the 1,000,000 edge ends, then node `n` at entry `1000000 + n`. -/
def withLoops (e : IVec S1000000 32) : IVec S1100000 32 :=
  concatenate S1100000 0 [⟨S1000000, e⟩, ⟨S100000, iotaInDim S100000 32 0⟩] concatenates_S1000000_S100000_S1100000_d0

/-- A negative node index counts from the end: `z + 100000` where `z < 0`, else `z`. -/
def wrapNegative (z : IVec S1100000 32) : IVec S1100000 32 :=
  select (cmpi .slt z (broadcastInDim S1100000 ![] bcast_S_S1100000 (constantI S_ 32 0#32)))
    (addi z (broadcastInDim S1100000 ![] bcast_S_S1100000 (constantI S_ 32 100000#32))) z

/-- A list of node indices as a column of one-entry index vectors. -/
def asColumn (z : IVec S1100000 32) : IVec S1100000x1 32 :=
  broadcastInDim S1100000x1 ![0] bcast_S1100000_S1100000x1_0 z

/-- A node's degree: a one summed into the node for every list entry that ends in it. -/
def degree (col : IVec S1100000 32) : FVec F S100000 .f32 :=
  Host.scatterAdd scatter_S100000_S1100000x1_S1100000_n_0_0_1
    (broadcastInDim S100000 ![] bcast_S_S100000 (constant S_ .f32 0x00000000#32))
    (asColumn col)
    (broadcastInDim S1100000 ![] bcast_S_S1100000 (constant S_ .f32 0x3F800000#32))

/-- A node's weight: the inverse square root of its degree where that is positive, zero elsewhere. -/
def nodeWeight (col : IVec S1100000 32) : FVec F S100000 .f32 :=
  select (cmpf (F := F) .ogt (degree col) (broadcastInDim S100000 ![] bcast_S_S100000 (constant S_ .f32 0x00000000#32)))
    (Host.rsqrt (degree col))
    (broadcastInDim S100000 ![] bcast_S_S100000 (id (constant S_ .f32 0x00000000#32)))

/-- A list entry's weight: the product of the weights of the nodes at its two ends. -/
def entryWeight (row col : IVec S1100000 32) : FVec F S1100000 .f32 :=
  mulf (Host.gather gather_S100000_S1100000x1_S1100000_n_0_n_n_0_1_1 (nodeWeight col) (asColumn (wrapNegative row)))
    (Host.gather gather_S100000_S1100000x1_S1100000_n_0_n_n_0_1_1 (nodeWeight col) (asColumn (wrapNegative col)))

/-- The aggregate of the feature rows `h` along the edges `row → col` (self-loops added): at each node the sum, over
    the entries ending in it, of the source's row times the entry's weight. -/
def aggregate (h : FVec F S100000x64 .f32) (row col : IVec S1000000 32) : FVec F S100000x64 .f32 :=
  Host.scatterAdd scatter_S100000x64_S1100000x1_S1100000x64_1_0_0_1
    (broadcastInDim S100000x64 ![] bcast_S_S100000x64 (constant S_ .f32 0x00000000#32))
    (asColumn (withLoops col))
    (mulf
      (Host.gather gather_S100000x64_S1100000x1_S1100000x64_1_0_n_n_0_1_164 h (asColumn (wrapNegative (withLoops row))))
      (broadcastInDim S1100000x64 ![0, 1] bcast_S1100000x1_S1100000x64_0_1
        (broadcastInDim S1100000x1 ![0] bcast_S1100000_S1100000x1_0 (entryWeight (withLoops row) (withLoops col)))))

/-- The edge list's row `r` (0: sources, 1: targets) as a flat list of 1,000,000 node indices. -/
def sources (edges : IVec S2x1000000 32) : IVec S1000000 32 :=
  shapeCast S1000000 (extractStridedSlice S1x1000000 ![0, 0] edges slices_S2x1000000_S1x1000000_0_0) shapeCasts_S1x1000000_S1000000

def targets (edges : IVec S2x1000000 32) : IVec S1000000 32 :=
  shapeCast S1000000 (extractStridedSlice S1x1000000 ![1, 0] edges slices_S2x1000000_S1x1000000_1_0) shapeCasts_S1x1000000_S1000000

end Cert.KernelIdeal.Aggregate

end
-- ==== Proof.HostWalk.lean ====
/-
  What the second region finds in its four input arrays, and what the first region found in its three.

  Between the two regions the program runs about a hundred host operations.  Read back from the second region's
  entry, its two large inputs are the edge aggregation (`Aggregate.aggregate`) of the first region's two outputs
  along the edge list in the two directions, and its two small inputs are the bias vectors re-laid as rows.  The
  first region is entered after four host operations that only cut the edge list into its two rows, so its three
  inputs are the launch contents.  The contents at the first region's exit (`Gen.W2`) stay folded: the fold stops
  there, and the region's own arrays are read off it separately.
-/
import proofs.«160559_j34256659153348_1_alg».proof.Proof.Gen.KernelIdeal.Frame
import proofs.«160559_j34256659153348_1_alg».proof.Proof.Aggregate
import Idealize.ShloMosaic.Lib.StableHlo.Run

set_option maxRecDepth 16384

noncomputable section

namespace Cert.KernelIdeal.HostWalk

open Cert.KernelIdeal Cert.KernelIdeal.Gen Cert.KernelIdeal.Aggregate Cert.KernelIdeal.Facts₀
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Before the first region: the launch contents, and the edge list's two rows -/

theorem entry0_x (c : Dev nD) : V1 m ρ c main_arg0 = m ((c : Thread nD τ).loc main_arg0) := by
  show StableHlo.after hostOps0 (W0 m ρ c) (Proc.devRef .tc main_arg0) = _
  after_results

theorem entry0_wf (c : Dev nD) : V1 m ρ c main_arg2 = m ((c : Thread nD τ).loc main_arg2) := by
  show StableHlo.after hostOps0 (W0 m ρ c) (Proc.devRef .tc main_arg2) = _
  after_results

theorem entry0_wb (c : Dev nD) : V1 m ρ c main_arg4 = m ((c : Thread nD τ).loc main_arg4) := by
  show StableHlo.after hostOps0 (W0 m ρ c) (Proc.devRef .tc main_arg4) = _
  after_results

/-- The sources' list, as the first region's exit contents hold it. -/
theorem exit0_sources (c : Dev nD) :
    W2 m ρ c (Proc.devRef .tc main_v1) = sources (m ((c : Thread nD τ).loc main_arg1)) := by
  rw [W2_of_ne m ρ c main_v1 (by decide)]
  show StableHlo.after hostOps0 (W0 m ρ c) (Proc.devRef .tc main_v1) = _
  after_results; rfl

/-- The targets' list, as the first region's exit contents hold it. -/
theorem exit0_targets (c : Dev nD) :
    W2 m ρ c (Proc.devRef .tc main_v3) = targets (m ((c : Thread nD τ).loc main_arg1)) := by
  rw [W2_of_ne m ρ c main_v3 (by decide)]
  show StableHlo.after hostOps0 (W0 m ρ c) (Proc.devRef .tc main_v3) = _
  after_results; rfl

theorem exit0_biasF (c : Dev nD) : W2 m ρ c (Proc.devRef .tc main_arg3) = m ((c : Thread nD τ).loc main_arg3) := by
  rw [W2_of_ne m ρ c main_arg3 (by decide)]
  show StableHlo.after hostOps0 (W0 m ρ c) (Proc.devRef .tc main_arg3) = _
  after_results

theorem exit0_biasB (c : Dev nD) : W2 m ρ c (Proc.devRef .tc main_arg5) = m ((c : Thread nD τ).loc main_arg5) := by
  rw [W2_of_ne m ρ c main_arg5 (by decide)]
  show StableHlo.after hostOps0 (W0 m ρ c) (Proc.devRef .tc main_arg5) = _
  after_results

/-! ## Between the regions -/

/-- The second region's first input: the aggregate of the first region's first output along source → target. -/
theorem entry1_forward (c : Dev nD) :
    V7 m ρ c main_v43 = aggregate (W2 m ρ c (Proc.devRef .tc main_v4_0)) (W2 m ρ c (Proc.devRef .tc main_v1)) (W2 m ρ c (Proc.devRef .tc main_v3)) := by
  show StableHlo.after hostOps1_4 (StableHlo.after hostOps1_3 (StableHlo.after hostOps1_2 (StableHlo.after hostOps1_1 (StableHlo.after hostOps1 (W2 m ρ c))))) (Proc.devRef .tc main_v43) = _
  after_results_simp
  rfl

set_option maxHeartbeats 2000000 in
/-- The second region's second input: the aggregate of the first region's second output along target → source. -/
theorem entry1_backward (c : Dev nD) :
    V7 m ρ c main_v82 = aggregate (W2 m ρ c (Proc.devRef .tc main_v4_1)) (W2 m ρ c (Proc.devRef .tc main_v3)) (W2 m ρ c (Proc.devRef .tc main_v1)) := by
  show StableHlo.after hostOps1_4 (StableHlo.after hostOps1_3 (StableHlo.after hostOps1_2 (StableHlo.after hostOps1_1 (StableHlo.after hostOps1 (W2 m ρ c))))) (Proc.devRef .tc main_v82) = _
  after_results_simp
  rfl

/-- The forward bias as a row. -/
theorem entry1_biasF (c : Dev nD) :
    V7 m ρ c main_v83 = shapeCast S1x64 (W2 m ρ c (Proc.devRef .tc main_arg3)) Facts₀.shapeCasts_S64_S1x64 := by
  show StableHlo.after hostOps1_4 (StableHlo.after hostOps1_3 (StableHlo.after hostOps1_2 (StableHlo.after hostOps1_1 (StableHlo.after hostOps1 (W2 m ρ c))))) (Proc.devRef .tc main_v83) = _
  after_results_simp
  rfl

/-- The backward bias as a row. -/
theorem entry1_biasB (c : Dev nD) :
    V7 m ρ c main_v84 = shapeCast S1x64 (W2 m ρ c (Proc.devRef .tc main_arg5)) Facts₀.shapeCasts_S64_S1x64 := by
  show StableHlo.after hostOps1_4 (StableHlo.after hostOps1_3 (StableHlo.after hostOps1_2 (StableHlo.after hostOps1_1 (StableHlo.after hostOps1 (W2 m ρ c))))) (Proc.devRef .tc main_v84) = _
  after_results_simp
  rfl

end Cert.KernelIdeal.HostWalk

end
-- ==== Proof.Spec.lean ====
/-
  The mathematics both programs compute, as functions of whole arrays over the extended reals.

  A graph layer in two directions: node features `x : [100000, 64]` are projected by a weight matrix,
  `h = x · W`; every edge (and one self-loop per node) carries its source row of `h`, scaled by the
  symmetric degree normalisation, to its target node, where the rows are summed; a bias row is added and the
  negative part is cut off; the two directions are averaged.  Only the two dense ends are stated here: the
  projection (`proj`) and the bias / cut-off / average (`blend`).  The edge aggregation between them is the
  same chain of host operations in both programs and is never opened.
-/
import Idealize.ShloMosaic.PureOps.Ideal
import Idealize.ShloMosaic.Lib.ValueIdx

noncomputable section

namespace Cert.Spec

open Idealize.ShloMosaic Idealize.ShloMosaic.ValueIdx

/-- Node features, and every per-node array of 64 channels. -/
abbrev Nodes : Shape := ⟨2, ![100000, 64]⟩
/-- A projection's weights: input channel × output channel. -/
abbrev Weights : Shape := ⟨2, ![64, 64]⟩
/-- A bias as a single row of 64 channels. -/
abbrev BiasRow : Shape := ⟨2, ![1, 64]⟩

/-- The projection `x · W`: entry (node, channel) is the sum over the 64 input channels `k` of
    `x[node, k] · W[k, channel]`. -/
def proj (x : FVec Ideal Nodes .f32) (W : FVec Ideal Weights .f32) : FVec Ideal Nodes .f32 :=
  fun i => ∑ k : Fin 64, x (ix2 (i 0) k) * W (ix2 k (i 1))

/-- Bias, cut-off at zero and average of the two directions: entry (node, channel) is
    `(max (a + p[channel]) 0 + max (b + q[channel]) 0) · ½`, the zero and the half as the float patterns the
    programs spell. -/
def blend (a b : FVec Ideal Nodes .f32) (p q : FVec Ideal BiasRow .f32) : FVec Ideal Nodes .f32 :=
  fun i =>
    FloatOps.mulf
      (FloatOps.addf
        (FloatOps.maximumf (FloatOps.addf (a i) (p (ix2 0 (i 1)))) (Scalar.ofBits .f32 0x00000000#32))
        (FloatOps.maximumf (FloatOps.addf (b i) (q (ix2 0 (i 1)))) (Scalar.ofBits .f32 0x00000000#32)))
      (Scalar.ofBits .f32 0x3F000000#32)

end Cert.Spec

end
-- ==== Proof.Layer.lean ====
/-
  The layer, as one function of the six argument arrays.

  Node features `x`, an edge list, and per direction a weight matrix and a bias.  Per direction: project the
  features (`Spec.proj`), aggregate along the edges in that direction (`Aggregate.aggregate`; the backward direction
  swaps the two endpoint lists).  Then add each direction's bias, cut off at zero and average (`Spec.blend`, the
  biases as rows).  Both programs are shown to end with this function of their arguments in the result array.
-/
import proofs.«160559_j34256659153348_1_alg».proof.Proof.Aggregate
import proofs.«160559_j34256659153348_1_alg».proof.Proof.Spec

noncomputable section

namespace Cert.Layer

open Idealize.ShloMosaic Cert.KernelIdeal Cert.KernelIdeal.Aggregate

/-- The layer's output from node features `x`, the edge list, and a weight matrix and a bias per direction. -/
def layer (x : FVec Ideal S100000x64 .f32) (edges : IVec S2x1000000 32)
    (Wf : FVec Ideal S64x64 .f32) (bf : FVec Ideal S64 .f32) (Wb : FVec Ideal S64x64 .f32) (bb : FVec Ideal S64 .f32) :
    FVec Ideal S100000x64 .f32 :=
  Cert.Spec.blend
    (aggregate (Cert.Spec.proj x Wf) (sources edges) (targets edges))
    (aggregate (Cert.Spec.proj x Wb) (targets edges) (sources edges))
    (shapeCast S1x64 bf Facts₀.shapeCasts_S64_S1x64) (shapeCast S1x64 bb Facts₀.shapeCasts_S64_S1x64)

end Cert.Layer

end
-- ==== Proof.ProjBlocks.lean ====
/-
  The projection, block by block.

  The first region cuts the node array x : [100000, 64] into 20 blocks of 5000 consecutive rows.  At grid point t
  it multiplies rows 5000·t … 5000·t + 4999 of x by the whole forward weight matrix and by the whole backward weight
  matrix, and writes the two products to rows 5000·t … 5000·t + 4999 of the two output arrays.  An entry of a product
  of a row block with a weight matrix is the sum over the 64 input channels k of x[row, k] · W[k, channel] (the
  narrowing of both factors to a shorter float format changes nothing over the extended reals, and the accumulator
  the product is added into is zero).  A row of the node array belongs to exactly the block its row number divided by
  5000 names, so the 20 blocks fill each output array, which therefore holds x · W entry by entry.
-/
import proofs.«160559_j34256659153348_1_alg».proof.Proof.Gen.KernelIdeal.Frame
import proofs.«160559_j34256659153348_1_alg».proof.Proof.Spec
import Idealize.ShloMosaic.Lib.Pipeline.Value
import Idealize.ShloMosaic.Lib.ValueIdx
import Idealize.ShloMosaic.PureOps.Ideal.Laws

noncomputable section

namespace Cert.KernelIdeal.ProjBlocks

open Cert.KernelIdeal Cert.KernelIdeal.Gen Idealize.ShloMosaic Idealize.ShloMosaic.TcCoe Idealize.SL.Sem
open Idealize.ShloMosaic.ValueIdx
open Idealize.ShloMosaic.Pipeline (Dat)

/-! ## The product of a row block with a weight block, entry by entry -/

/-- The left factor's row coordinate is the entry's row. -/
theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

/-- The left factor's column coordinate is the summation index. -/
theorem lhs_inner (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q

/-- The right factor's row coordinate is the summation index. -/
theorem rhs_inner (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q

/-- The right factor's column coordinate is the entry's channel. -/
theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- A product of a 5000-row block with a 64 × 64 matrix, added into zero, at entry (r, ch): the sum over the 64
    inner indices k of x[r, k] · w[k, ch]. -/
theorem product_entry (x : FVec Ideal S5000x64 .bf16) (w : FVec Ideal S64x64 .bf16) (r : Fin 5000) (ch : Fin 64) :
    matmul dot_S5000x64_S64x64_S5000x64_1_0_0_1_n_n none x w (constant S5000x64 .f32 0x00000000#32) (ix2 r ch)
      = ∑ k : Fin 64, x (ix2 r k) * w (ix2 k ch) := by
  refine (Ideal.matmul_constant_zero_apply dot_S5000x64_S64x64_S5000x64_1_0_0_1_n_n none x w (ix2 r ch)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 r ch) ((contrEquiv1 dot_S5000x64_S64x64_S5000x64_1_0_0_1_n_n 64 rfl rfl).symm k) = ix2 r k :=
    funext fun a => Fin.ext (by
      match a with
      | ⟨0, _⟩ => exact lhs_row _ _
      | ⟨1, _⟩ => exact (lhs_inner _ _).trans hk)
  have er : dot_S5000x64_S64x64_S5000x64_1_0_0_1_n_n.rhsIdx (ix2 r ch) ((contrEquiv1 dot_S5000x64_S64x64_S5000x64_1_0_0_1_n_n 64 rfl rfl).symm k) = ix2 k ch :=
    funext fun a => Fin.ext (by
      match a with
      | ⟨0, _⟩ => exact (rhs_inner _ _).trans hk
      | ⟨1, _⟩ => exact rhs_col _ _)
  rw [el, er]

/-- The forward product the body stores, at entry (r, ch): narrowing the factors is the identity, so it is the
    same sum over the unnarrowed blocks. -/
theorem forward_payload_entry (x0 : Vec Ideal S5000x64 .f32) (w : Vec Ideal S64x64 .f32) (r : Fin 5000) (ch : Fin 64) :
    k0_pay2 x0 w (ix2 r ch) = ∑ k : Fin 64, x0 (ix2 r k) * w (ix2 k ch) := by
  unfold k0_pay2 k0_pay1
  exact product_entry _ _ r ch

/-- The backward product is the same function of its row block and weight block. -/
theorem backward_payload_eq (x0 : Vec Ideal S5000x64 .f32) (w : Vec Ideal S64x64 .f32) : k0_pay3 x0 w = k0_pay2 x0 w := rfl

/-! ## From blocks to the array -/

/-- The zero offsets, as a constant function. -/
theorem zero_offsets : (![0, 0] : Fin 2 → Nat) = fun _ => 0 := funext fun a => by fin_cases a <;> rfl

/-- Where each window's block sits at grid point t: the node windows at row block t, the weight windows at the one block. -/
theorem block_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- One entry of the product of a row block with a weight block is the projection's entry, when the row block
    holds rows n*5000 … of the node array and the weight block is the weight array. -/
theorem block_entry (X : FVec Ideal Cert.Spec.Nodes .f32) (W : FVec Ideal Cert.Spec.Weights .f32)
    (x0 : Vec Ideal S5000x64 .f32) (w : Vec Ideal S64x64 .f32) (n : Nat) (hn : n < 20)
    (hx : ∀ (r : Fin 5000) (k : Fin 64), x0 (ix2 r k) = X (ix2 (⟨n * 5000 + r.val, by omega⟩ : Fin 100000) k))
    (hw : ∀ (k ch : Fin 64), w (ix2 k ch) = W (ix2 k ch))
    (r : Fin 5000) (ch : Fin 64) :
    k0_pay2 x0 w (ix2 r ch) = Cert.Spec.proj X W (ix2 (⟨n * 5000 + r.val, by omega⟩ : Fin 100000) ch) := by
  rw [forward_payload_entry]
  unfold Cert.Spec.proj
  refine Finset.sum_congr rfl fun k _ => ?_
  rw [hx, hw]

-- The contents of every array when the region is entered.
variable (V : (c : Dev nD) → (b : Ref sig .tc) → Buf (Elt Ideal) ((c : Thread nD τ).loc b))

/-- Row r of the node window's block at point t is row t*5000 + r of the node array. -/
theorem node_block_rows (c : Dev nD) (t : Fin cfg0.N) (ht : t.val < 20) (r : Fin 5000) (k : Fin 64) :
    (iblk0 V c 0 t : Vec Ideal S5000x64 .f32) (ix2 r k) = (V c main_arg0 : S100000x64.Idx → EReal) (ix2 (⟨t.val * 5000 + r.val, by omega⟩ : Fin 100000) k) := by
  obtain ⟨e0, e1, -⟩ := block_positions t
  unfold iblk0
  rw [View.read_apply]
  show V c main_arg0 _ = V c main_arg0 _
  congr 1
  funext a
  apply Fin.ext
  match a with
  | ⟨0, _⟩ => show win0_0.index t (0 : Fin 2) * 5000 + 1 * r.val = t.val * 5000 + r.val; rw [e0]; omega
  | ⟨1, _⟩ => show win0_0.index t (1 : Fin 2) * 64 + 1 * k.val = k.val; rw [e1]; omega

/-- The forward weight window's block at any point is the whole weight array. -/
theorem forward_weight_block (c : Dev nD) (t : Fin cfg0.N) (k ch : Fin 64) :
    (iblk0 V c 1 t : Vec Ideal S64x64 .f32) (ix2 k ch) = (V c main_arg2 : S64x64.Idx → EReal) (ix2 k ch) := by
  obtain ⟨-, -, e0, e1, -⟩ := block_positions t
  unfold iblk0
  rw [View.read_apply]
  show V c main_arg2 _ = V c main_arg2 _
  congr 1
  funext a
  apply Fin.ext
  match a with
  | ⟨0, _⟩ => show win0_1.index t (0 : Fin 2) * 64 + 1 * k.val = k.val; rw [e0]; omega
  | ⟨1, _⟩ => show win0_1.index t (1 : Fin 2) * 64 + 1 * ch.val = ch.val; rw [e1]; omega

/-- The backward weight window's block at any point is the whole weight array. -/
theorem backward_weight_block (c : Dev nD) (t : Fin cfg0.N) (k ch : Fin 64) :
    (iblk0 V c 2 t : Vec Ideal S64x64 .f32) (ix2 k ch) = (V c main_arg4 : S64x64.Idx → EReal) (ix2 k ch) := by
  obtain ⟨-, -, -, -, e0, e1, -⟩ := block_positions t
  unfold iblk0
  rw [View.read_apply]
  show V c main_arg4 _ = V c main_arg4 _
  congr 1
  funext a
  apply Fin.ext
  match a with
  | ⟨0, _⟩ => show win0_2.index t (0 : Fin 2) * 64 + 1 * k.val = k.val; rw [e0]; omega
  | ⟨1, _⟩ => show win0_2.index t (1 : Fin 2) * 64 + 1 * ch.val = ch.val; rw [e1]; omega

/-- What point t writes back to the forward output is block t of the projection of the node array by the forward weights. -/
theorem forward_flushed (c : Dev nD) (t : Fin cfg0.N) :
    (dat0 (F := Ideal) V c).flushed 3 t
      = ((cfg0.win 3).blk t).view.read (Elt Ideal) (Cert.Spec.proj (V c main_arg0) (V c main_arg2)) := by
  have hN : cfg0.N = 20 := N_0
  have ht : t.val < 20 := by have := t.isLt; omega
  obtain ⟨-, -, -, -, -, -, e0, e1, -⟩ := block_positions t
  show (cfg0.win 3).cut (grid0.coords t) ((dat0 V c).after 3 t) = _
  rw [after0_3]
  unfold out0_3
  rw [View.canon_unit_zero zero_offsets]
  simp only [View.ld_unit_zero (S := S5000x64) zero_offsets, View.ld_unit_zero (S := S64x64) zero_offsets]
  funext j
  show k0_pay2 (iblk0 V c 0 t) (iblk0 V c 1 t) j = Cert.Spec.proj (V c main_arg0) (V c main_arg2) (((cfg0.win 3).blk t).view.emb j)
  obtain ⟨r, ch, rfl⟩ : ∃ (r : Fin 5000) (ch : Fin 64), j = ix2 r ch := ⟨j 0, j 1, eq_ix2 j⟩
  refine (block_entry (V c main_arg0) (V c main_arg2) (iblk0 V c 0 t) (iblk0 V c 1 t) t.val ht
    (node_block_rows V c t ht) (forward_weight_block V c t) r ch).trans ?_
  congr 1
  funext a
  apply Fin.ext
  match a with
  | ⟨0, _⟩ => show t.val * 5000 + r.val = win0_3.index t (0 : Fin 2) * 5000 + 1 * r.val; rw [e0]; omega
  | ⟨1, _⟩ => show ch.val = win0_3.index t (1 : Fin 2) * 64 + 1 * ch.val; rw [e1]; omega

/-- A node-array index lies in the forward output's block at point t iff each coordinate lies in the block's range. -/
theorem forward_mem_block (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v4_0).slice (win0_3.rect t)).set ↔ _
  rw [View.set_slice_whole, Rect.mem_set_unit]
  exact Iff.rfl

/-- Every row of the forward output lies in the block of the point its row number divided by 5000 names. -/
theorem forward_cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  have hlt : (i 0).val / 5000 < cfg0.N := by rw [hN]; omega
  obtain ⟨-, -, -, -, -, -, e0, e1, -⟩ := block_positions ⟨(i 0).val / 5000, hlt⟩
  refine ⟨⟨(i 0).val / 5000, hlt⟩, flush0_3 _, ?_⟩
  rw [forward_mem_block]
  intro a
  match a with
  | ⟨0, _⟩ =>
    show win0_3.index ⟨(i 0).val / 5000, hlt⟩ (0 : Fin 2) * 5000 ≤ (i 0).val ∧ (i 0).val < win0_3.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_3.index ⟨(i 0).val / 5000, hlt⟩ (1 : Fin 2) * 64 ≤ (i 1).val ∧ (i 1).val < win0_3.index ⟨(i 0).val / 5000, hlt⟩ (1 : Fin 2) * 64 + 64
    rw [e1]; omega

/-- After region 0 the forward output array is the projection of the node array by the forward weights. -/
theorem forward_eq (c : Dev nD) :
    (dat0 (F := Ideal) V c).arrAt 3 cfg0.N = Cert.Spec.proj (V c main_arg0) (V c main_arg2) :=
  (dat0 (F := Ideal) V c).arrAt_eq_of_cover 3 (Cert.Spec.proj (V c main_arg0) (V c main_arg2))
    (fun t _ => forward_flushed V c t) forward_cover

/-- What point t writes back to the backward output is block t of the projection of the node array by the backward weights. -/
theorem backward_flushed (c : Dev nD) (t : Fin cfg0.N) :
    (dat0 (F := Ideal) V c).flushed 4 t
      = ((cfg0.win 4).blk t).view.read (Elt Ideal) (Cert.Spec.proj (V c main_arg0) (V c main_arg4)) := by
  have hN : cfg0.N = 20 := N_0
  have ht : t.val < 20 := by have := t.isLt; omega
  obtain ⟨-, -, -, -, -, -, -, -, e0, e1⟩ := block_positions t
  show (cfg0.win 4).cut (grid0.coords t) ((dat0 V c).after 4 t) = _
  rw [after0_4]
  unfold out0_4
  rw [View.canon_unit_zero zero_offsets]
  simp only [View.ld_unit_zero (S := S5000x64) zero_offsets, View.ld_unit_zero (S := S64x64) zero_offsets]
  rw [backward_payload_eq]
  funext j
  show k0_pay2 (iblk0 V c 0 t) (iblk0 V c 2 t) j = Cert.Spec.proj (V c main_arg0) (V c main_arg4) (((cfg0.win 4).blk t).view.emb j)
  obtain ⟨r, ch, rfl⟩ : ∃ (r : Fin 5000) (ch : Fin 64), j = ix2 r ch := ⟨j 0, j 1, eq_ix2 j⟩
  refine (block_entry (V c main_arg0) (V c main_arg4) (iblk0 V c 0 t) (iblk0 V c 2 t) t.val ht
    (node_block_rows V c t ht) (backward_weight_block V c t) r ch).trans ?_
  congr 1
  funext a
  apply Fin.ext
  match a with
  | ⟨0, _⟩ => show t.val * 5000 + r.val = win0_4.index t (0 : Fin 2) * 5000 + 1 * r.val; rw [e0]; omega
  | ⟨1, _⟩ => show ch.val = win0_4.index t (1 : Fin 2) * 64 + 1 * ch.val; rw [e1]; omega

/-- A node-array index lies in the backward output's block at point t iff each coordinate lies in the block's range. -/
theorem backward_mem_block (t : Fin cfg0.N) (i : S100000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v4_1).slice (win0_4.rect t)).set ↔ _
  rw [View.set_slice_whole, Rect.mem_set_unit]
  exact Iff.rfl

/-- Every row of the backward output lies in the block of the point its row number divided by 5000 names. -/
theorem backward_cover (i : S100000x64.Idx) :
    ∃ t : Fin cfg0.N, (cfg0.win 4).flush t = true ∧ i ∈ ((cfg0.win 4).blk t).view.set := by
  have hi0 : (i 0).val < 100000 := (i 0).isLt
  have hi1 : (i 1).val < 64 := (i 1).isLt
  have hN : cfg0.N = 20 := N_0
  have hlt : (i 0).val / 5000 < cfg0.N := by rw [hN]; omega
  obtain ⟨-, -, -, -, -, -, -, -, e0, e1⟩ := block_positions ⟨(i 0).val / 5000, hlt⟩
  refine ⟨⟨(i 0).val / 5000, hlt⟩, flush0_4 _, ?_⟩
  rw [backward_mem_block]
  intro a
  match a with
  | ⟨0, _⟩ =>
    show win0_4.index ⟨(i 0).val / 5000, hlt⟩ (0 : Fin 2) * 5000 ≤ (i 0).val ∧ (i 0).val < win0_4.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_4.index ⟨(i 0).val / 5000, hlt⟩ (1 : Fin 2) * 64 ≤ (i 1).val ∧ (i 1).val < win0_4.index ⟨(i 0).val / 5000, hlt⟩ (1 : Fin 2) * 64 + 64
    rw [e1]; omega

/-- After region 0 the backward output array is the projection of the node array by the backward weights. -/
theorem backward_eq (c : Dev nD) :
    (dat0 (F := Ideal) V c).arrAt 4 cfg0.N = Cert.Spec.proj (V c main_arg0) (V c main_arg4) :=
  (dat0 (F := Ideal) V c).arrAt_eq_of_cover 4 (Cert.Spec.proj (V c main_arg0) (V c main_arg4))
    (fun t _ => backward_flushed V c t) backward_cover

end Cert.KernelIdeal.ProjBlocks

end
-- ==== Proof.BlendBlocks.lean ====
/-
  The last dense step of the layer, block by block: bias, cut-off at zero and average.

  The node arrays have 100000 rows of 64 channels and are processed in 20 blocks of 5000 consecutive rows; the
  two bias rows are seen whole by every block.  On a block the step computes, at (row, channel),
  `(max (a + p[channel]) 0 + max (b + q[channel]) 0) · ½`, where the bias row is repeated over the 5000 rows.
  Row `r` of block `t` is row `5000 t + r` of the array, for both inputs and for the output alike, so each block
  of the output is the same block of `Spec.blend` of the whole arrays; the 20 blocks cover all rows (row `n`
  lies in block `n / 5000`), hence the output array as a whole is `Spec.blend` of the input arrays.
-/
import proofs.«160559_j34256659153348_1_alg».proof.Proof.Gen.KernelIdeal.Frame
import proofs.«160559_j34256659153348_1_alg».proof.Proof.Spec
import Idealize.ShloMosaic.Lib.Pipeline.Value
import Idealize.ShloMosaic.Lib.ValueIdx
import Idealize.ShloMosaic.Lib.ValueLayout

noncomputable section

namespace Cert.KernelIdeal.BlendBlocks

open Cert.KernelIdeal Idealize.ShloMosaic Idealize.ShloMosaic.TcCoe Idealize.ShloMosaic.ValueIdx Idealize.SL.Sem
open Idealize.ShloMosaic.Pipeline (Dat)

/-- The offset pair (0, 0) is the zero offset on both axes. -/
theorem zero_offsets : (![0, 0] : Fin 2 → Nat) = fun _ => 0 := funext fun a => by fin_cases a <;> rfl

/-- The step on one block, at row `r` and channel `ch`: each input entry gets its bias entry of the same channel
    (the single bias row is repeated down the rows), negative values are replaced by zero, and the two results
    are added and halved.  Recasting a block to its own shape changes nothing. -/
theorem pay_apply (x0 x1 : FVec Ideal S5000x64 .f32) (x2 x3 : FVec Ideal S1x64 .f32) (r : Fin 5000) (ch : Fin 64) :
    Gen.k1_pay1 (F := Ideal) x0 x2 x1 x3 (ix2 r ch) =
      FloatOps.mulf
        (FloatOps.addf
          (FloatOps.maximumf (FloatOps.addf (x0 (ix2 r ch)) (x2 (ix2 0 ch))) (Scalar.ofBits .f32 0x00000000#32))
          (FloatOps.maximumf (FloatOps.addf (x1 (ix2 r ch)) (x3 (ix2 0 ch))) (Scalar.ofBits .f32 0x00000000#32)))
        (Scalar.ofBits .f32 0x3F000000#32) := by
  unfold Gen.k1_pay1
  simp only [shapeCast_self]
  show FloatOps.mulf (FloatOps.addf (FloatOps.maximumf (FloatOps.addf (x0 (ix2 r ch)) (broadcastTo S5000x64 x2 Gen.broadcasts_S1x64_S5000x64 (ix2 r ch))) _) (FloatOps.maximumf (FloatOps.addf (x1 (ix2 r ch)) (broadcastTo S5000x64 x3 Gen.broadcasts_S1x64_S5000x64 (ix2 r ch))) _)) _ = _
  rw [broadcastTo_1b_ab_apply x2 _ r ch, broadcastTo_1b_ab_apply x3 _ r ch]
  rfl

/-- If the two input blocks at block position `y` hold the entries of the arrays `a`, `b` at array position `k`,
    and `k` has the channel of `y`, then the step on the block at `y` is `Spec.blend` of the arrays at `k`: the
    bias entry depends on the channel only. -/
theorem pay_eq_blend (a b : FVec Ideal Cert.Spec.Nodes .f32) (p q : FVec Ideal Cert.Spec.BiasRow .f32)
    (x0 x1 : FVec Ideal S5000x64 .f32) (y : S5000x64.Idx) (k : Cert.Spec.Nodes.Idx)
    (hk1 : (k 1).val = (y 1).val) (h0 : x0 y = a k) (h1 : x1 y = b k) :
    Gen.k1_pay1 (F := Ideal) x0 p x1 q y = Cert.Spec.blend a b p q k := by
  obtain ⟨r, ch, rfl⟩ : ∃ (r : Fin 5000) (ch : Fin 64), y = ix2 r ch := ⟨y 0, y 1, eq_ix2 y⟩
  rw [pay_apply, h0, h1]
  have hc : (k 1 : Fin 64) = ch := Fin.ext hk1
  unfold Cert.Spec.blend
  rw [hc]

/-- Where the blocks sit: at the `t`-th of the 20 steps the two node inputs and the output are at block row `t`,
    block column 0; the two bias rows are always at block (0, 0). -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- Block `t` of the first node input: its entry (row, channel) is the array's entry (5000 t + row, channel). -/
theorem block_a_apply (c : Dev nD) (t : Fin cfg1.N) (y : S5000x64.Idx) (k : S100000x64.Idx)
    (hk0 : (k 0).val = t.val * 5000 + (y 0).val) (hk1 : (k 1).val = (y 1).val) :
    (Gen.iblk1 V c 0 t : FVec Ideal S5000x64 .f32) y = (V c main_v43 : S100000x64.Idx → Ideal .f32) k := by
  obtain ⟨e0, e1, -⟩ := block_index t
  unfold Gen.iblk1
  rw [View.read_apply]
  show V c main_v43 _ = V c main_v43 _
  congr 1
  funext a
  apply Fin.ext
  match a with
  | ⟨0, _⟩ => show win1_0.index t (0 : Fin 2) * 5000 + 1 * (y 0).val = (k 0).val; rw [e0, hk0]; omega
  | ⟨1, _⟩ => show win1_0.index t (1 : Fin 2) * 64 + 1 * (y 1).val = (k 1).val; rw [e1, hk1]; omega

/-- Block `t` of the second node input: its entry (row, channel) is the array's entry (5000 t + row, channel). -/
theorem block_b_apply (c : Dev nD) (t : Fin cfg1.N) (y : S5000x64.Idx) (k : S100000x64.Idx)
    (hk0 : (k 0).val = t.val * 5000 + (y 0).val) (hk1 : (k 1).val = (y 1).val) :
    (Gen.iblk1 V c 1 t : FVec Ideal S5000x64 .f32) y = (V c main_v82 : S100000x64.Idx → Ideal .f32) k := by
  obtain ⟨-, -, e0, e1, -⟩ := block_index t
  unfold Gen.iblk1
  rw [View.read_apply]
  show V c main_v82 _ = V c main_v82 _
  congr 1
  funext a
  apply Fin.ext
  match a with
  | ⟨0, _⟩ => show win1_1.index t (0 : Fin 2) * 5000 + 1 * (y 0).val = (k 0).val; rw [e0, hk0]; omega
  | ⟨1, _⟩ => show win1_1.index t (1 : Fin 2) * 64 + 1 * (y 1).val = (k 1).val; rw [e1, hk1]; omega

/-- The first bias row has a single block, the row itself, whatever the step. -/
theorem bias_block_p (c : Dev nD) (t : Fin cfg1.N) :
    (Gen.iblk1 V c 2 t : FVec Ideal S1x64 .f32) = (V c main_v83 : S1x64.Idx → Ideal .f32) := by
  obtain ⟨-, -, -, -, e0, e1, -⟩ := block_index t
  funext y
  unfold Gen.iblk1
  rw [View.read_apply]
  show V c main_v83 _ = V c main_v83 y
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 64 + 1 * (y 1).val = (y 1).val; rw [e1]; omega

/-- The second bias row has a single block, the row itself, whatever the step. -/
theorem bias_block_q (c : Dev nD) (t : Fin cfg1.N) :
    (Gen.iblk1 V c 3 t : FVec Ideal S1x64 .f32) = (V c main_v84 : S1x64.Idx → Ideal .f32) := by
  obtain ⟨-, -, -, -, -, -, e0, e1, -⟩ := block_index t
  funext y
  unfold Gen.iblk1
  rw [View.read_apply]
  show V c main_v84 _ = V c main_v84 y
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 64 + 1 * (y 1).val = (y 1).val; rw [e1]; omega

/-- What step `t` writes into the output array is block `t` of `Spec.blend` of the whole input arrays: the body
    stores its result over the whole block, the result at (row, channel) is the step's formula of the input blocks
    there, and input and output blocks sit at the same rows `5000 t + row` of their arrays. -/
theorem flushed_eq (c : Dev nD) (t : Fin cfg1.N) :
    (Gen.dat1 V c).flushed 4 t = ((cfg1.win 4).blk t).view.read (Elt Ideal)
      (Cert.Spec.blend (V c main_v43) (V c main_v82) (V c main_v83) (V c main_v84)) := by
  show (cfg1.win 4).cut (grid1.coords t) ((Gen.dat1 V c).after 4 t) = _
  rw [Gen.after1_4]
  unfold Gen.out1_4
  rw [View.canon_unit_zero zero_offsets]
  simp only [View.ld_unit_zero (S := S5000x64) zero_offsets, View.ld_unit_zero (S := S1x64) zero_offsets]
  rw [bias_block_p V c t, bias_block_q V c t]
  obtain ⟨-, -, -, -, -, -, -, -, e0, e1⟩ := block_index t
  funext j
  show Gen.k1_pay1 (F := Ideal) (Gen.iblk1 V c 0 t) (V c main_v83) (Gen.iblk1 V c 1 t) (V c main_v84) j
    = Cert.Spec.blend (V c main_v43) (V c main_v82) (V c main_v83) (V c main_v84) (((cfg1.win 4).blk t).view.emb j)
  have hj0 : ((((cfg1.win 4).blk t).view.emb j : S100000x64.Idx) 0).val = t.val * 5000 + (j 0).val := by
    show win1_4.index t (0 : Fin 2) * 5000 + 1 * (j 0).val = _; rw [e0]; omega
  have hj1 : ((((cfg1.win 4).blk t).view.emb j : S100000x64.Idx) 1).val = (j 1).val := by
    show win1_4.index t (1 : Fin 2) * 64 + 1 * (j 1).val = _; rw [e1]; omega
  exact pay_eq_blend _ _ _ _ _ _ j _ hj1 (block_a_apply V c t j _ hj0 hj1) (block_b_apply V c t j _ hj0 hj1)

/-- A position of the output array lies in block `t` exactly when, on each axis, its coordinate lies in the
    block's range: block index times block size, up to one block size further. -/
theorem mem_block (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v85).slice (win1_4.rect t)).set ↔ _
  rw [View.set_slice_whole, Rect.mem_set_unit]
  exact Iff.rfl

/-- Every position of the output array is written: row `n` lies in block `n / 5000`, one of the 20, and every
    block spans all 64 channels. -/
theorem covered (i : S100000x64.Idx) :
    ∃ t : Fin cfg1.N, (cfg1.win 4).flush t = true ∧ i ∈ ((cfg1.win 4).blk t).view.set := by
  have hN : cfg1.N = 20 := Gen.N_1
  have hi0 : (i 0).val < 100000 := (i 0).isLt
  have hi1 : (i 1).val < 64 := (i 1).isLt
  obtain ⟨t, ht⟩ : ∃ t : Fin cfg1.N, t.val = (i 0).val / 5000 := ⟨⟨(i 0).val / 5000, by rw [hN]; omega⟩, rfl⟩
  obtain ⟨-, -, -, -, -, -, -, -, e0, e1⟩ := block_index t
  refine ⟨t, Gen.flush1_4 t, ?_⟩
  rw [mem_block]
  intro a
  match a with
  | ⟨0, _⟩ =>
    show win1_4.index t (0 : Fin 2) * 5000 ≤ (i 0).val ∧ (i 0).val < win1_4.index t (0 : Fin 2) * 5000 + 5000
    rw [e0, ht]; omega
  | ⟨1, _⟩ =>
    show win1_4.index t (1 : Fin 2) * 64 ≤ (i 1).val ∧ (i 1).val < win1_4.index t (1 : Fin 2) * 64 + 64
    rw [e1]; omega

/-- After the 20 steps the output array is `Spec.blend` of the four input arrays as the steps found them: every
    step writes its block of that one function, and the blocks cover the array. -/
theorem blend_eq (c : Dev nD) :
    (Gen.dat1 V c).arrAt 4 cfg1.N = Cert.Spec.blend (V c main_v43) (V c main_v82) (V c main_v83) (V c main_v84) :=
  (Gen.dat1 V c).arrAt_eq_of_cover 4 _ (fun t _ => flushed_eq V c t) covered

end Cert.KernelIdeal.BlendBlocks

end
-- ==== Proof.KernelValue.lean ====
/-
  The kernel program's result as a function of the launch contents.

  Read backwards from the result array: the second region leaves `Spec.blend` of its four inputs; its two large
  inputs are the edge aggregates, in the two directions, of the first region's two outputs; its two small inputs
  are the biases as rows; the first region leaves the projections `Spec.proj` of the node features by the two
  weight matrices; and the first region's inputs, the edge list's rows and the biases are the launch contents.
-/
import proofs.«160559_j34256659153348_1_alg».proof.Proof.HostWalk
import proofs.«160559_j34256659153348_1_alg».proof.Proof.Layer
import proofs.«160559_j34256659153348_1_alg».proof.Proof.ProjBlocks
import proofs.«160559_j34256659153348_1_alg».proof.Proof.BlendBlocks

set_option maxRecDepth 16384

noncomputable section

namespace Cert.KernelIdeal.KernelValue

open Cert.KernelIdeal Cert.KernelIdeal.Gen Cert.KernelIdeal.Aggregate Cert.KernelIdeal.HostWalk
open Idealize.ShloMosaic Idealize.ShloMosaic.TcCoe Idealize.SL.Sem

variable (m : (ℓ : Loc nD τ sig) → Buf (Elt Ideal) ℓ) (ρ : Dev nD → PrngReg)

/-- What the run leaves in the result array is the layer's output of the launch contents. -/
theorem result_eq (c : Dev nD) :
    W8 m ρ c (Proc.devRef .tc main_v85)
      = Cert.Layer.layer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  have h85 : W8 m ρ c (Proc.devRef .tc main_v85) = (dat1 (V7 m ρ) c).arrAt 4 cfg1.N := W8_arr m ρ c 4
  have hf : W2 m ρ c (Proc.devRef .tc main_v4_0) = (dat0 (V1 m ρ) c).arrAt 3 cfg0.N := W2_arr m ρ c 3
  have hb : W2 m ρ c (Proc.devRef .tc main_v4_1) = (dat0 (V1 m ρ) c).arrAt 4 cfg0.N := W2_arr m ρ c 4
  rw [h85, Cert.KernelIdeal.BlendBlocks.blend_eq (V7 m ρ) c, entry1_forward m ρ c, entry1_backward m ρ c,
    entry1_biasF m ρ c, entry1_biasB m ρ c, hf, hb,
    Cert.KernelIdeal.ProjBlocks.forward_eq (V1 m ρ) c, Cert.KernelIdeal.ProjBlocks.backward_eq (V1 m ρ) c,
    entry0_x m ρ c, entry0_wf m ρ c, entry0_wb m ρ c,
    exit0_sources m ρ c, exit0_targets m ρ c, exit0_biasF m ρ c, exit0_biasB m ρ c]
  rfl

end Cert.KernelIdeal.KernelValue

end
-- ==== Proof.RefValue.lean ====
/-
  The reference's result as the same function of the arguments as the kernel's.

  The reference computes, per direction, the projection `x · W` by one host matrix product, the edge aggregation by
  the same chain of gathers and scatter-sums as the kernel's program (`Aggregate.aggregate`), then adds the bias,
  cuts off at zero, and averages the two directions, all on whole arrays.  Three facts: its result term IS that
  composition (by unfolding); the host matrix product at an entry is the sum over the 64 input channels (the
  contraction's one axis, re-indexed); and the whole-array bias / cut-off / average is `Spec.blend` of the biases
  re-laid as rows, entry by entry.
-/
import proofs.«160559_j34256659153348_1_alg».proof.Proof.RefRun
import proofs.«160559_j34256659153348_1_alg».proof.Proof.Aggregate
import proofs.«160559_j34256659153348_1_alg».proof.Proof.Spec
import proofs.«160559_j34256659153348_1_alg».proof.Proof.Layer
import Idealize.ShloMosaic.PureOps.Ideal.Laws
import Idealize.ShloMosaic.Lib.ValueIdx
import Idealize.ShloMosaic.Lib.Pipeline.Value

set_option maxRecDepth 16384

noncomputable section

namespace Cert.ReferenceIdeal.RefValue

open Cert.ReferenceIdeal Cert.ReferenceIdeal.Facts₀
open Idealize.ShloMosaic Idealize.ShloMosaic.TcCoe Idealize.SL.Sem Idealize.ShloMosaic.ValueIdx
open Cert.KernelIdeal.Aggregate

variable {F : FTy → Type} [FloatOps F]

/-- Bias, cut-off at zero and average on whole arrays, as the reference spells them: each bias vector broadcast
    over the nodes through a row. -/
def tail (a b : FVec F S100000x64 .f32) (p q : FVec F S64 .f32) : FVec F S100000x64 .f32 :=
  mulf
    (addf
      (maximumf
        (addf a (broadcastInDim S100000x64 ![0, 1] bcast_S1x64_S100000x64_0_1 (broadcastInDim S1x64 ![1] bcast_S64_S1x64_1 p)))
        (broadcastInDim S100000x64 ![] bcast_S_S100000x64 (constant S_ .f32 0x00000000#32)))
      (maximumf
        (addf b (broadcastInDim S100000x64 ![0, 1] bcast_S1x64_S100000x64_0_1 (broadcastInDim S1x64 ![1] bcast_S64_S1x64_1 q)))
        (broadcastInDim S100000x64 ![] bcast_S_S100000x64 (constant S_ .f32 0x00000000#32))))
    (broadcastInDim S100000x64 ![] bcast_S_S100000x64 (constant S_ .f32 0x3F000000#32))

/-- The reference's result term is the tail of the two directions' aggregates of the two host projections. -/
theorem result_eq (m : (ℓ : Loc nD τ sig) → Buf (Elt F) ℓ) (c : Dev nD) :
    ValueP.res_main_v94 m c
      = tail
          (aggregate
            (Host.dotGeneral dot_S100000x64_S64x64_S100000x64_1_0_0_1_n_n none (m ((c.tc : Thread nD τ).loc main_arg0)) (m ((c.tc : Thread nD τ).loc main_arg2)))
            (sources (m ((c.tc : Thread nD τ).loc main_arg1))) (targets (m ((c.tc : Thread nD τ).loc main_arg1))))
          (aggregate
            (Host.dotGeneral dot_S100000x64_S64x64_S100000x64_1_0_0_1_n_n none (m ((c.tc : Thread nD τ).loc main_arg0)) (m ((c.tc : Thread nD τ).loc main_arg4)))
            (targets (m ((c.tc : Thread nD τ).loc main_arg1))) (sources (m ((c.tc : Thread nD τ).loc main_arg1))))
          (m ((c.tc : Thread nD τ).loc main_arg3)) (m ((c.tc : Thread nD τ).loc main_arg5)) := by
  unfold ValueP.res_main_v94 tail aggregate entryWeight nodeWeight degree asColumn wrapNegative withLoops sources targets
  rfl

/-- The host matrix product at an entry (node, channel): the sum over the input channels. -/
theorem dot_eq_proj (x : FVec Ideal S100000x64 .f32) (W : FVec Ideal S64x64 .f32) :
    Host.dotGeneral dot_S100000x64_S64x64_S100000x64_1_0_0_1_n_n none x W = Cert.Spec.proj x W := by
  funext i
  show FloatOps.dotGeneral dot_S100000x64_S64x64_S100000x64_1_0_0_1_n_n none .single x W i = _
  rw [Ideal.dotGeneral_apply]
  unfold Cert.Spec.proj
  rw [← Equiv.sum_comp (contrEquiv1 dot_S100000x64_S64x64_S100000x64_1_0_0_1_n_n 64 rfl rfl).symm]
  refine Finset.sum_congr rfl fun k _ => ?_
  have hl : dot_S100000x64_S64x64_S100000x64_1_0_0_1_n_n.lhsIdx i ((contrEquiv1 dot_S100000x64_S64x64_S100000x64_1_0_0_1_n_n 64 rfl rfl).symm k) = ix2 (i 0) k := by
    funext a; apply Fin.ext
    match a with
    | ⟨0, _⟩ => rfl
    | ⟨1, _⟩ => exact (DotDims.lhsIdx_val_of_single (d := dot_S100000x64_S64x64_S100000x64_1_0_0_1_n_n) (cl := 1) rfl i _).trans (contrEquiv1_symm_val _ 64 rfl rfl k)
  have hr : dot_S100000x64_S64x64_S100000x64_1_0_0_1_n_n.rhsIdx i ((contrEquiv1 dot_S100000x64_S64x64_S100000x64_1_0_0_1_n_n 64 rfl rfl).symm k) = ix2 k (i 1) := by
    funext a; apply Fin.ext
    match a with
    | ⟨0, _⟩ => exact (DotDims.rhsIdx_val_of_single (d := dot_S100000x64_S64x64_S100000x64_1_0_0_1_n_n) (cr := 0) rfl i _).trans (contrEquiv1_symm_val _ 64 rfl rfl k)
    | ⟨1, _⟩ => rfl
  rw [hl, hr]
  rfl

/-- The whole-array tail, entry by entry, is `Spec.blend` with the biases as rows. -/
theorem tail_eq_blend (a b : FVec Ideal S100000x64 .f32) (p q : FVec Ideal S64 .f32) (hsc : S64.ShapeCasts S1x64) :
    tail a b p q = Cert.Spec.blend a b (shapeCast S1x64 p hsc) (shapeCast S1x64 q hsc) := by
  funext i
  obtain ⟨n, ch, rfl⟩ : ∃ (n : Fin 100000) (ch : Fin 64), i = ix2 n ch := ⟨i 0, i 1, eq_ix2 i⟩
  have hb : ∀ v : FVec Ideal S64 .f32,
      broadcastInDim S100000x64 ![0, 1] bcast_S1x64_S100000x64_0_1 (broadcastInDim S1x64 ![1] bcast_S64_S1x64_1 v) (ix2 n ch)
        = shapeCast S1x64 v hsc (ix2 0 ch) := by
    intro v
    rw [broadcastInDim_apply ![0, 1] bcast_S1x64_S100000x64_0_1 _ (ix2 n ch) (ix2 (0 : Fin 1) ch)
        (by intro a; match a with | ⟨0, _⟩ => rfl | ⟨1, _⟩ => rfl),
      broadcastInDim_apply ![1] bcast_S64_S1x64_1 v (ix2 (0 : Fin 1) ch) (ix1 ch)
        (by intro a; match a with | ⟨0, _⟩ => rfl),
      shapeCast_apply v hsc (ix2 (0 : Fin 1) ch) (ix1 ch) (by rw [Shape.rowMajor_val_one, Shape.rowMajor_val_two]; show ch.val = 0 * 64 + ch.val; omega)]
  show FloatOps.mulf (FloatOps.addf (FloatOps.maximumf (FloatOps.addf (a (ix2 n ch)) _) _) (FloatOps.maximumf (FloatOps.addf (b (ix2 n ch)) _) _)) _ = _
  unfold Cert.Spec.blend
  rw [hb p, hb q]
  rfl

/-- The reference's result is the layer's output of its arguments. -/
theorem result_eq_layer (m : (ℓ : Loc nD τ sig) → Buf (Elt Ideal) ℓ) (c : Dev nD) :
    ValueP.res_main_v94 m c
      = Cert.Layer.layer (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rw [result_eq, dot_eq_proj, dot_eq_proj, tail_eq_blend _ _ _ _ Cert.KernelIdeal.Facts₀.shapeCasts_S64_S1x64]
  rfl

end Cert.ReferenceIdeal.RefValue

end
-- ==== Proof.lean ====
/-
  Two programs for one graph layer end with the same result on the extended reals.

  The layer: node features `x : [100000, 64]`, an edge list `[2, 1000000]`, and for each of the two directions a
  weight matrix and a bias.  Per direction the features are projected (`x · W`), each edge — and one self-loop per
  node — carries its source's projected row, scaled by the product of the inverse square roots of its two ends'
  degrees, to its target, where the rows are summed; the bias is added, negative entries are cut off, and the two
  directions are averaged (`Layer.layer`).

  The kernel program computes the two projections in a first region, twenty blocks of 5000 rows, each block a
  matrix product of a block of `x` with the whole weight matrix into a zero accumulator (the roundings to a
  narrower format on the way in are the identity on the extended reals); runs the edge aggregation as host
  operations; and adds the biases, cuts off and averages in a second region, again by blocks of 5000 rows.  The
  reference computes each projection by one host matrix product and the rest on whole arrays.  A matrix product,
  blockwise or whole, is at each entry the sum over the 64 input channels, and the blocks tile the rows, so the two
  projections agree; the aggregation is the same chain of operations on both sides and is carried as one function;
  the pointwise end agrees entry by entry.  No law used needs the inputs finite, so the precondition is never opened.

  The three frames: the two kernel programs' are the generated frame proofs; the reference has no kernel and its
  frame is its run with the result dropped.  The idealisation rewrote nothing, so `preserves` is `True`.
-/
import proofs.«160559_j34256659153348_1_alg».proof.Defs
import proofs.«160559_j34256659153348_1_alg».proof.Proof.Gen.Kernel
import proofs.«160559_j34256659153348_1_alg».proof.Proof.Gen.Kernel.Skeleton
import proofs.«160559_j34256659153348_1_alg».proof.Proof.Gen.Kernel.Launch
import proofs.«160559_j34256659153348_1_alg».proof.Proof.Gen.Kernel.Points
import proofs.«160559_j34256659153348_1_alg».proof.Proof.Gen.Kernel.Frame
import proofs.«160559_j34256659153348_1_alg».proof.Proof.Gen.KernelIdeal
import proofs.«160559_j34256659153348_1_alg».proof.Proof.Gen.KernelIdeal.Skeleton
import proofs.«160559_j34256659153348_1_alg».proof.Proof.Gen.KernelIdeal.Launch
import proofs.«160559_j34256659153348_1_alg».proof.Proof.Gen.KernelIdeal.Points
import proofs.«160559_j34256659153348_1_alg».proof.Proof.Gen.KernelIdeal.Frame
import proofs.«160559_j34256659153348_1_alg».proof.Proof.Gen.ReferenceIdeal
import proofs.«160559_j34256659153348_1_alg».proof.Proof.Gen.Pre_finite_inputs
import proofs.«160559_j34256659153348_1_alg».proof.Proof.KernelRun
import proofs.«160559_j34256659153348_1_alg».proof.Proof.KernelValue
import proofs.«160559_j34256659153348_1_alg».proof.Proof.RefRun
import proofs.«160559_j34256659153348_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories that agree on the six arguments both programs end with the layer's output of those arguments in
    their result arrays. -/
theorem algebraic : Cert.algebraic_KernelIdeal_ReferenceIdeal := by
  intro m ρ m' ρ' _ hagree
  refine ⟨fun c => Cert.Layer.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KernelValue.result_eq m ρ c), (h c).2⟩)
      (Cert.KernelIdeal.RunResult.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.result_eq_layer m' c, (hagree c).1, (hagree c).2.1, (hagree c).2.2.1,
      (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
